-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S1600000 32) (main_arg2 : IVec S1600000 32) (main_arg3 : FVec F S64x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 37
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S50000x64, .f32⟩
  | .hbm, ⟨18, _⟩ => ⟨S1600000x1, .i32⟩
  | .hbm, ⟨19, _⟩ => ⟨S50000x64, .f32⟩
  | .hbm, ⟨20, _⟩ => ⟨S1x64, .f32⟩
  | .hbm, ⟨21, _⟩ => ⟨S50000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S50000x64, .f32⟩
  | .hbm, ⟨33, _⟩ => ⟨S1600000x1, .i32⟩
  | .hbm, ⟨34, _⟩ => ⟨S50000x64, .f32⟩
  | .hbm, ⟨35, _⟩ => ⟨S1x64, .f32⟩
  | .hbm, ⟨36, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S50000x64, .f32⟩
  | .hbm, ⟨18, _⟩ => ⟨S1600000x1, .i32⟩
  | .hbm, ⟨19, _⟩ => ⟨S50000x64, .f32⟩
  | .hbm, ⟨20, _⟩ => ⟨S64x64, .f32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S50000x64, .f32⟩
  | .hbm, ⟨37, _⟩ => ⟨S1600000x1, .i32⟩
  | .hbm, ⟨38, _⟩ => ⟨S50000x64, .f32⟩
  | .hbm, ⟨39, _⟩ => ⟨S64x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/- The run of the two-round message-passing program on the TensorCores, with its RESULT kept.

   The program is four segments: a stretch of host operations (the first round's neighbour sum and the bias
   reshape), the first dense region, a second stretch of host operations, the second dense region.  The buffer
   contents at each segment boundary are a fold from the launch memory; at the last boundary every unscoped
   buffer holds the fold's last stage.  Here the final state is read at the result buffer (the second region's
   output array) as well as at the seven argument arrays: the result is the last stage of the fold at that
   buffer, the arguments are as launched. -/
import proofs.«159912_j16707422781832_1_alg».proof.Proof.Gen.KernelIdeal.Frame

set_option maxRecDepth 16384

noncomputable section

namespace Cert.MessagePassing

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory with zero counters, every weakly fair execution of the program on the TensorCores terminates,
    nothing faulting, and in every final state the result buffer holds the last stage of the boundary fold at
    that buffer, and each of the seven argument arrays is as launched. -/
theorem kernel_run : θ_run defs (onTc (τ := τ) (main (F := F))) ⟨m, fun _ => 0, ρ⟩ (fun r => ∀ c : Dev nD,
      r.2.mem ((c.tc : Thread nD τ).loc main_v23) = Gen.W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) Gen.adm (Gen.pdats m ρ) () cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W4 m ρ c) s')
      isplitl [Hh] <;> iassumption)
    (hQ := fun s h c =>
      ⟨h c _ (Gen.mem_uc main_v23 (by decide)),
       (h c _ (Gen.mem_uc main_arg0 (by decide))).trans (Gen.W4_main_arg0 m ρ c),
       (h c _ (Gen.mem_uc main_arg1 (by decide))).trans (Gen.W4_main_arg1 m ρ c),
       (h c _ (Gen.mem_uc main_arg2 (by decide))).trans (Gen.W4_main_arg2 m ρ c),
       (h c _ (Gen.mem_uc main_arg3 (by decide))).trans (Gen.W4_main_arg3 m ρ c),
       (h c _ (Gen.mem_uc main_arg4 (by decide))).trans (Gen.W4_main_arg4 m ρ c),
       (h c _ (Gen.mem_uc main_arg5 (by decide))).trans (Gen.W4_main_arg5 m ρ c),
       (h c _ (Gen.mem_uc main_arg6 (by decide))).trans (Gen.W4_main_arg6 m ρ c)⟩)

/-- info: 'Cert.MessagePassing.kernel_run' depends on axioms: [propext, Classical.choice, Quot.sound] -/
#guard_msgs in #print axioms kernel_run

end Cert.MessagePassing

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.Payload.lean ====
/-
  What each kernel body stores, entry by entry.

  Both bodies take a block `x` of 5000 rows of node features, the whole weight matrix `w` and the bias row `b`,
  and store `x · wᵀ + b` — the first one its hyperbolic tangent. Rounding the operands to a narrower format is the
  identity on extended reals, the matrix unit's product against the transposed weight from the zero accumulator is the
  sum over the 64 input features of `x (r, d) · w (q, d)`, and the bias row is the same in every row of the block.
-/
import proofs.«159912_j16707422781832_1_alg».proof.Proof.Gen.KernelIdeal.Skeleton
import proofs.«159912_j16707422781832_1_alg».proof.Proof.LibMatmulRead
import Idealize.ShloMosaic.Lib.ValueLayout

noncomputable section

open scoped BigOperators

namespace Cert.MessagePassing

open Idealize.ShloMosaic Idealize.ShloMosaic.ValueIdx Cert.KernelIdeal Cert.KernelIdeal.Facts₀

/-- The product and the bias of either body at the entry `(r, q)` of the block. -/
theorem product_bias_apply (x0 : Vec Ideal S5000x64 .f32) (x1 : Vec Ideal S64x64 .f32) (x2 : Vec Ideal S1x64 .f32)
    (r : Fin 5000) (q : Fin 64) :
    addf (matmul dot_S5000x64_S64x64_S5000x64_1_0_0_1_n_n none
        (truncf .bf16 (shapeCast S5000x64 x0 shapeCasts_S5000x64_S5000x64) bitsLt_bf16_f32)
        (transpose S64x64 [1, 0] (truncf .bf16 x1 bitsLt_bf16_f32) transposes_S64x64_p1_0_S64x64)
        (constant (F := Ideal) S5000x64 .f32 0x00000000#32))
      (broadcastTo S5000x64 (shapeCast S1x64 x2 shapeCasts_S1x64_S1x64) broadcasts_S1x64_S5000x64) (ix2 r q)
      = (∑ d : Fin 64, x0 (ix2 r d) * x1 (ix2 q d)) + x2 (ix2 (0 : Fin 1) q) := by
  refine congrArg₂ (· + ·) ?_ ?_
  · refine (matmul_transpose_ix2_apply dot_S5000x64_S64x64_S5000x64_1_0_0_1_n_n rfl rfl rfl rfl rfl rfl none _ _ _ r q).trans ?_
    refine Finset.sum_congr rfl fun d _ => congrArg (· * x1 (ix2 q d)) ?_
    exact congrFun (shapeCast_self x0 shapeCasts_S5000x64_S5000x64) (ix2 r d)
  · refine (broadcastTo_1b_ab_apply _ broadcasts_S1x64_S5000x64 r q).trans ?_
    exact congrFun (shapeCast_self x2 shapeCasts_S1x64_S1x64) (ix2 (0 : Fin 1) q)

/-- The first body's stored value at `(r, q)`: the hyperbolic tangent of the product plus the bias. -/
theorem pay_tanh_apply (x0 : Vec Ideal S5000x64 .f32) (x1 : Vec Ideal S64x64 .f32) (x2 : Vec Ideal S1x64 .f32)
    (r : Fin 5000) (q : Fin 64) :
    Gen.k0_pay1 (F := Ideal) x0 x1 x2 (ix2 r q)
      = Ideal.tanh ((∑ d : Fin 64, x0 (ix2 r d) * x1 (ix2 q d)) + x2 (ix2 (0 : Fin 1) q)) := by
  unfold Gen.k0_pay1
  exact congrArg Ideal.tanh (product_bias_apply x0 x1 x2 r q)

/-- The second body's stored value at `(r, q)`: the product plus the bias. -/
theorem pay_apply (x0 : Vec Ideal S5000x64 .f32) (x1 : Vec Ideal S64x64 .f32) (x2 : Vec Ideal S1x64 .f32)
    (r : Fin 5000) (q : Fin 64) :
    Gen.k1_pay1 (F := Ideal) x0 x1 x2 (ix2 r q)
      = (∑ d : Fin 64, x0 (ix2 r d) * x1 (ix2 q d)) + x2 (ix2 (0 : Fin 1) q) := by
  unfold Gen.k1_pay1
  exact product_bias_apply x0 x1 x2 r q

end Cert.MessagePassing

end
-- ==== Proof.Dense.lean ====
/-
  A dense layer on node features, entry by entry.

  Node features are a 50000 × 64 array of extended reals, a weight matrix is 64 × 64 with one ROW per output
  feature, and a bias has one entry per output feature. The dense layer sends the features `x` to
  `x · wᵀ + β`: its entry `(p, q)` is the inner product of row `p` of `x` with row `q` of `w`, plus `β q`.
  `denseTanh` is the same followed by the hyperbolic tangent of every entry.
-/
import Idealize.ShloMosaic.PureOps.Ideal
import Idealize.ShloMosaic.Lib.ValueIdx

noncomputable section

open scoped BigOperators

namespace Cert.MessagePassing

open Idealize.ShloMosaic Idealize.ShloMosaic.ValueIdx

/-- Node features: 50000 nodes with 64 features each. -/
abbrev Nodes : Shape := ⟨2, ![50000, 64]⟩
/-- A weight matrix: 64 output features (rows) by 64 input features (columns). -/
abbrev Weights : Shape := ⟨2, ![64, 64]⟩

/-- The dense layer `x · wᵀ + β`: entry `(p, q)` is `∑ d, x (p, d) · w (q, d) + β q`. -/
def dense (x : FVec Ideal Nodes .f32) (w : FVec Ideal Weights .f32) (β : Fin 64 → EReal) : FVec Ideal Nodes .f32 :=
  fun i => (∑ d : Fin 64, x (ix2 (⟨(i 0).val, idx2_lt0 i⟩ : Fin 50000) d) * w (ix2 (⟨(i 1).val, idx2_lt1 i⟩ : Fin 64) d))
    + β ⟨(i 1).val, idx2_lt1 i⟩

/-- The dense layer read at the entry with coordinates `p` and `q`. -/
theorem dense_apply (x : FVec Ideal Nodes .f32) (w : FVec Ideal Weights .f32) (β : Fin 64 → EReal) (p : Fin 50000) (q : Fin 64) :
    dense x w β (ix2 p q) = (∑ d : Fin 64, x (ix2 p d) * w (ix2 q d)) + β q := rfl

/-- The dense layer followed by the hyperbolic tangent of every entry. -/
def denseTanh (x : FVec Ideal Nodes .f32) (w : FVec Ideal Weights .f32) (β : Fin 64 → EReal) : FVec Ideal Nodes .f32 :=
  fun i => Ideal.tanh (dense x w β i)

/-- The dense layer with the hyperbolic tangent read at the entry with coordinates `p` and `q`. -/
theorem denseTanh_apply (x : FVec Ideal Nodes .f32) (w : FVec Ideal Weights .f32) (β : Fin 64 → EReal) (p : Fin 50000) (q : Fin 64) :
    denseTanh x w β (ix2 p q) = Ideal.tanh ((∑ d : Fin 64, x (ix2 p d) * w (ix2 q d)) + β q) := rfl

end Cert.MessagePassing

end
-- ==== Proof.KernelBlocks.lean ====
/-
  From blocks to arrays: what each of the two kernel regions leaves in its output array.

  A region walks ten grid points; at point `t` it reads rows `5000 t … 5000 t + 4999` of its feature array, the whole
  weight matrix and the whole bias row, and writes the same rows of its output array. So entry `(5000 t + r, q)` of
  the output array is the body's value at `(r, q)` of point `t`, which is the dense layer's entry there; the ten blocks
  tile the array (row `n` lies in block `n / 5000`), hence the whole output array is the dense layer of the arrays the
  region finds — followed by the hyperbolic tangent in the first region.
-/
import proofs.«159912_j16707422781832_1_alg».proof.Proof.Gen.KernelIdeal.Frame
import proofs.«159912_j16707422781832_1_alg».proof.Proof.Payload
import proofs.«159912_j16707422781832_1_alg».proof.Proof.Dense

set_option maxRecDepth 16384

noncomputable section

open scoped BigOperators

namespace Cert.MessagePassing

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The origin of a rank-2 rectangle. -/
theorem origin : (![0, 0] : Fin 2 → Nat) = fun _ => 0 := funext fun a => by fin_cases a <;> rfl

/-! ## Region 0 -/

/-- The block index maps of region 0, decided over its ten grid points: the feature window and the output window
    are at block row `t`, column block 0; the weight and bias windows stay at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the feature block at point `t` is row `5000 t + r` of the feature array. -/
theorem features_block0 (c : Dev nD) (t : Fin cfg0.N) (r : Fin 5000) (d : Fin 64) (h : t.val * 5000 + r.val < 50000) :
    iblk0 V c 0 t (ix2 r d) = V c main_v9 (ix2 ⟨t.val * 5000 + r.val, h⟩ d) := by
  obtain ⟨e0, e1, -⟩ := index_facts0 t
  show V c main_v9 (((cfg0.win 0).blk t).view.emb (ix2 r d)) = V c main_v9 (ix2 ⟨t.val * 5000 + r.val, h⟩ d)
  refine congrArg (V c main_v9) (funext fun a => Fin.ext ?_)
  match a with
  | ⟨0, _⟩ => show win0_0.index t (0 : Fin 2) * 5000 + 1 * r.val = t.val * 5000 + r.val; omega
  | ⟨1, _⟩ => show win0_0.index t (1 : Fin 2) * 64 + 1 * d.val = d.val; omega

/-- The weight block at every point is the whole weight matrix. -/
theorem weights_block0 (c : Dev nD) (t : Fin cfg0.N) (q d : Fin 64) :
    iblk0 V c 1 t (ix2 q d) = V c main_arg3 (ix2 q d) := by
  obtain ⟨-, -, e2, e3, -⟩ := index_facts0 t
  show V c main_arg3 (((cfg0.win 1).blk t).view.emb (ix2 q d)) = V c main_arg3 (ix2 q d)
  refine congrArg (V c main_arg3) (funext fun a => Fin.ext ?_)
  match a with
  | ⟨0, _⟩ => show win0_1.index t (0 : Fin 2) * 64 + 1 * q.val = q.val; omega
  | ⟨1, _⟩ => show win0_1.index t (1 : Fin 2) * 64 + 1 * d.val = d.val; omega

/-- The bias block at every point is the whole bias row. -/
theorem bias_block0 (c : Dev nD) (t : Fin cfg0.N) (q : Fin 64) :
    iblk0 V c 2 t (ix2 (0 : Fin 1) q) = V c main_v10 (ix2 (0 : Fin 1) q) := by
  obtain ⟨-, -, -, -, e4, e5, -⟩ := index_facts0 t
  show V c main_v10 (((cfg0.win 2).blk t).view.emb (ix2 (0 : Fin 1) q)) = V c main_v10 (ix2 (0 : Fin 1) q)
  refine congrArg (V c main_v10) (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- Entry `(r, q)` of the output block at point `t` is entry `(5000 t + r, q)` of the output array. -/
theorem output_block0 (t : Fin cfg0.N) (r : Fin 5000) (q : Fin 64) (h : t.val * 5000 + r.val < 50000) :
    ((cfg0.win 3).blk t).view.emb (ix2 r q) = ix2 ⟨t.val * 5000 + r.val, h⟩ q := by
  obtain ⟨-, -, -, -, -, -, e6, e7⟩ := index_facts0 t
  refine funext fun a => Fin.ext ?_
  match a with
  | ⟨0, _⟩ => show win0_3.index t (0 : Fin 2) * 5000 + 1 * r.val = t.val * 5000 + r.val; omega
  | ⟨1, _⟩ => show win0_3.index t (1 : Fin 2) * 64 + 1 * q.val = q.val; omega

/-- What point `t` writes back is block `t` of the dense layer of the arrays the region finds. -/
theorem flushed0_eq (c : Dev nD) (t : Fin cfg0.N) :
    (dat0 (F := Ideal) V c).flushed 3 t = ((cfg0.win 3).blk t).view.read (Elt Ideal)
      (denseTanh (V c main_v9) (V c main_arg3) (fun q => V c main_v10 (ix2 (0 : Fin 1) q))) := by
  show (cfg0.win 3).cut (grid0.coords t) ((dat0 V c).after 3 t) = _
  rw [after0_3]
  unfold out0_3
  rw [View.canon_unit_zero origin]
  simp only [View.ld_unit_zero (S := S5000x64) origin, View.ld_unit_zero (S := S64x64) origin, View.ld_unit_zero (S := S1x64) origin]
  funext j
  obtain ⟨r, q, rfl⟩ : ∃ (r : Fin 5000) (q : Fin 64), j = ix2 r q := ⟨j 0, j 1, eq_ix2 j⟩
  have ht : t.val < 10 := t.isLt
  have hr : t.val * 5000 + r.val < 50000 := by have := r.isLt; omega
  show k0_pay1 (iblk0 V c 0 t) (iblk0 V c 1 t) (iblk0 V c 2 t) (ix2 r q)
    = denseTanh (V c main_v9) (V c main_arg3) (fun q => V c main_v10 (ix2 (0 : Fin 1) q)) (((cfg0.win 3).blk t).view.emb (ix2 r q))
  rw [output_block0 t r q hr]
  refine (pay_tanh_apply (iblk0 V c 0 t) (iblk0 V c 1 t) (iblk0 V c 2 t) r q).trans ?_
  refine (denseTanh_apply (V c main_v9) (V c main_arg3) _ ⟨t.val * 5000 + r.val, hr⟩ q).symm ▸ ?_
  refine congrArg Ideal.tanh ?_
  refine congrArg₂ (· + ·) (Finset.sum_congr rfl fun d _ => congrArg₂ (· * ·) (features_block0 V c t r d hr) (weights_block0 V c t q d))
    (bias_block0 V c t q)

/-- An index of the output array is in point `t`'s block iff each coordinate is in the block's range on its axis. -/
theorem mem_block0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v11).slice (win0_3.rect t)).set ↔ _
  rw [View.set_slice_whole, Rect.mem_set_unit]
  exact Iff.rfl

/-- Every row of the output array lies in the block of the point `row / 5000`. -/
theorem covered0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  refine ⟨⟨(i 0).val / 5000, by show (i 0).val / 5000 < 10; omega⟩, flush0_3 _, ?_⟩
  rw [mem_block0]
  obtain ⟨-, -, -, -, -, -, e6, e7⟩ := index_facts0 ⟨(i 0).val / 5000, by show (i 0).val / 5000 < 10; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e7]; omega

/-- The first region's output array: the dense layer with the hyperbolic tangent of the arrays the region finds. -/
theorem region0_array (c : Dev nD) :
    (dat0 (F := Ideal) V c).arrAt 3 cfg0.N
      = denseTanh (V c main_v9) (V c main_arg3) (fun q => V c main_v10 (ix2 (0 : Fin 1) q)) :=
  (dat0 V c).arrAt_eq_of_cover 3 _ (fun t _ => flushed0_eq V c t) covered0

/-! ## Region 1 -/

/-- The block index maps of region 1, decided over its ten grid points: the feature window and the output window
    are at block row `t`, column block 0; the weight and bias windows stay at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of the feature block at point `t` is row `5000 t + r` of the feature array. -/
theorem features_block1 (c : Dev nD) (t : Fin cfg1.N) (r : Fin 5000) (d : Fin 64) (h : t.val * 5000 + r.val < 50000) :
    iblk1 V c 0 t (ix2 r d) = V c main_v21 (ix2 ⟨t.val * 5000 + r.val, h⟩ d) := by
  obtain ⟨e0, e1, -⟩ := index_facts1 t
  show V c main_v21 (((cfg1.win 0).blk t).view.emb (ix2 r d)) = V c main_v21 (ix2 ⟨t.val * 5000 + r.val, h⟩ d)
  refine congrArg (V c main_v21) (funext fun a => Fin.ext ?_)
  match a with
  | ⟨0, _⟩ => show win1_0.index t (0 : Fin 2) * 5000 + 1 * r.val = t.val * 5000 + r.val; omega
  | ⟨1, _⟩ => show win1_0.index t (1 : Fin 2) * 64 + 1 * d.val = d.val; omega

/-- The weight block at every point is the whole weight matrix. -/
theorem weights_block1 (c : Dev nD) (t : Fin cfg1.N) (q d : Fin 64) :
    iblk1 V c 1 t (ix2 q d) = V c main_arg5 (ix2 q d) := by
  obtain ⟨-, -, e2, e3, -⟩ := index_facts1 t
  show V c main_arg5 (((cfg1.win 1).blk t).view.emb (ix2 q d)) = V c main_arg5 (ix2 q d)
  refine congrArg (V c main_arg5) (funext fun a => Fin.ext ?_)
  match a with
  | ⟨0, _⟩ => show win1_1.index t (0 : Fin 2) * 64 + 1 * q.val = q.val; omega
  | ⟨1, _⟩ => show win1_1.index t (1 : Fin 2) * 64 + 1 * d.val = d.val; omega

/-- The bias block at every point is the whole bias row. -/
theorem bias_block1 (c : Dev nD) (t : Fin cfg1.N) (q : Fin 64) :
    iblk1 V c 2 t (ix2 (0 : Fin 1) q) = V c main_v22 (ix2 (0 : Fin 1) q) := by
  obtain ⟨-, -, -, -, e4, e5, -⟩ := index_facts1 t
  show V c main_v22 (((cfg1.win 2).blk t).view.emb (ix2 (0 : Fin 1) q)) = V c main_v22 (ix2 (0 : Fin 1) q)
  refine congrArg (V c main_v22) (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- Entry `(r, q)` of the output block at point `t` is entry `(5000 t + r, q)` of the output array. -/
theorem output_block1 (t : Fin cfg1.N) (r : Fin 5000) (q : Fin 64) (h : t.val * 5000 + r.val < 50000) :
    ((cfg1.win 3).blk t).view.emb (ix2 r q) = ix2 ⟨t.val * 5000 + r.val, h⟩ q := by
  obtain ⟨-, -, -, -, -, -, e6, e7⟩ := index_facts1 t
  refine funext fun a => Fin.ext ?_
  match a with
  | ⟨0, _⟩ => show win1_3.index t (0 : Fin 2) * 5000 + 1 * r.val = t.val * 5000 + r.val; omega
  | ⟨1, _⟩ => show win1_3.index t (1 : Fin 2) * 64 + 1 * q.val = q.val; omega

/-- What point `t` writes back is block `t` of the dense layer of the arrays the region finds. -/
theorem flushed1_eq (c : Dev nD) (t : Fin cfg1.N) :
    (dat1 (F := Ideal) V c).flushed 3 t = ((cfg1.win 3).blk t).view.read (Elt Ideal)
      (dense (V c main_v21) (V c main_arg5) (fun q => V c main_v22 (ix2 (0 : Fin 1) q))) := by
  show (cfg1.win 3).cut (grid1.coords t) ((dat1 V c).after 3 t) = _
  rw [after1_3]
  unfold out1_3
  rw [View.canon_unit_zero origin]
  simp only [View.ld_unit_zero (S := S5000x64) origin, View.ld_unit_zero (S := S64x64) origin, View.ld_unit_zero (S := S1x64) origin]
  funext j
  obtain ⟨r, q, rfl⟩ : ∃ (r : Fin 5000) (q : Fin 64), j = ix2 r q := ⟨j 0, j 1, eq_ix2 j⟩
  have ht : t.val < 10 := t.isLt
  have hr : t.val * 5000 + r.val < 50000 := by have := r.isLt; omega
  show k1_pay1 (iblk1 V c 0 t) (iblk1 V c 1 t) (iblk1 V c 2 t) (ix2 r q)
    = dense (V c main_v21) (V c main_arg5) (fun q => V c main_v22 (ix2 (0 : Fin 1) q)) (((cfg1.win 3).blk t).view.emb (ix2 r q))
  rw [output_block1 t r q hr]
  refine (pay_apply (iblk1 V c 0 t) (iblk1 V c 1 t) (iblk1 V c 2 t) r q).trans ?_
  refine (dense_apply (V c main_v21) (V c main_arg5) _ ⟨t.val * 5000 + r.val, hr⟩ q).symm ▸ ?_

  refine congrArg₂ (· + ·) (Finset.sum_congr rfl fun d _ => congrArg₂ (· * ·) (features_block1 V c t r d hr) (weights_block1 V c t q d))
    (bias_block1 V c t q)

/-- An index of the output array is in point `t`'s block iff each coordinate is in the block's range on its axis. -/
theorem mem_block1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v23).slice (win1_3.rect t)).set ↔ _
  rw [View.set_slice_whole, Rect.mem_set_unit]
  exact Iff.rfl

/-- Every row of the output array lies in the block of the point `row / 5000`. -/
theorem covered1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  refine ⟨⟨(i 0).val / 5000, by show (i 0).val / 5000 < 10; omega⟩, flush1_3 _, ?_⟩
  rw [mem_block1]
  obtain ⟨-, -, -, -, -, -, e6, e7⟩ := index_facts1 ⟨(i 0).val / 5000, by show (i 0).val / 5000 < 10; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e7]; omega

/-- The second region's output array: the dense layer of the arrays the region finds. -/
theorem region1_array (c : Dev nD) :
    (dat1 (F := Ideal) V c).arrAt 3 cfg1.N
      = dense (V c main_v21) (V c main_arg5) (fun q => V c main_v22 (ix2 (0 : Fin 1) q)) :=
  (dat1 V c).arrAt_eq_of_cover 3 _ (fun t _ => flushed1_eq V c t) covered1

end Cert.MessagePassing

end
-- ==== Proof.Aggregate.lean ====
/-
  The sum aggregation of one round of message passing, as ONE function of the node features and the two edge lists.

  Every edge `e` carries the feature row of its source node `src e` (a negative source index counted from the end,
  as array indexing does) to its destination node `dst e`, and a node's aggregate is the sum of the rows that
  arrive. Both programs compute it by the same host operations — a compare, an add and a select on the source
  indices, a row gather, and a row scatter that adds into zeros — so this file only NAMES that composite; nothing
  about its value is needed beyond its being the same function on both sides.
-/
import proofs.«159912_j16707422781832_1_alg».proof.Proof.Gen.KernelIdeal
import Idealize.ShloMosaic.PureOps.Ideal

noncomputable section

namespace Cert.MessagePassing

open Idealize.ShloMosaic Cert.KernelIdeal Cert.KernelIdeal.Facts₀

/-- The aggregate `segment_sum (x[src], dst)`: the source indices with the negative ones wrapped, the gathered rows,
    and their sum into the destination rows, starting from zeros. -/
def aggregate (x : FVec Ideal S50000x64 .f32) (src dst : IVec S1600000 32) : FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S50000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

end Cert.MessagePassing

end
-- ==== Proof.KernelChain.lean ====
/- The result of the two-round message-passing program, read through its four segments.

   The buffer contents at the segment boundaries are a fold from the launch memory.  The result buffer is the
   second dense region's output array; that region computes the dense layer of the arrays it finds; those arrays
   are what the second stretch of host operations leaves: the neighbour sum of the first region's output, the
   second weight matrix untouched, and the second bias reshaped to one row.  The first region's output is the
   dense layer with the hyperbolic tangent of what the first stretch of host operations leaves: the neighbour sum
   of the launched features, the first weight matrix untouched, the first bias reshaped to one row.  The
   neighbour sum is kept as ONE function of the features and the two edge lists throughout. -/
import proofs.«159912_j16707422781832_1_alg».proof.Proof.KernelRun
import proofs.«159912_j16707422781832_1_alg».proof.Proof.KernelBlocks
import proofs.«159912_j16707422781832_1_alg».proof.Proof.Aggregate
import proofs.«159912_j16707422781832_1_alg».proof.Proof.Dense
import Idealize.ShloMosaic.Lib.ValueLayout
import Idealize.ShloMosaic.Lib.StableHlo.Run

set_option maxRecDepth 16384

noncomputable section

open scoped BigOperators

namespace Cert.MessagePassing

open Idealize.ShloMosaic Idealize.ShloMosaic.TcCoe Idealize.ShloMosaic.ValueIdx Idealize.SL.Sem
open Cert.KernelIdeal Cert.KernelIdeal.Gen Cert.KernelIdeal.Facts₀

variable (m : (ℓ : Loc nD τ sig) → Buf (Elt Ideal) ℓ) (ρ : Dev nD → PrngReg) (c : Dev nD)

/-! ## The first stretch of host operations, from the launch memory -/

/-- The first stretch leaves the neighbour sum of the launched features in the first region's feature array. -/
theorem V1_main_v9 : (Gen.V1 (F := Ideal) m ρ c main_v9 : S50000x64.Idx → EReal)
    = aggregate (m ((c.tc : Thread nD τ).loc main_arg0)) (m ((c.tc : Thread nD τ).loc main_arg1)) (m ((c.tc : Thread nD τ).loc main_arg2)) := by
  dsimp only [Gen.V1, Gen.W1, Gen.hostOps0]
  after_results
  rfl

/-- The first stretch leaves the first bias, reshaped to one row, in the first region's bias array. -/
theorem V1_main_v10 : (Gen.V1 (F := Ideal) m ρ c main_v10 : S1x64.Idx → EReal)
    = shapeCast S1x64 (m ((c.tc : Thread nD τ).loc main_arg4)) Facts₀.shapeCasts_S64_S1x64 := by
  dsimp only [Gen.V1, Gen.W1, Gen.hostOps0]
  after_results
  rfl

/-- The first bias row read at its entry `q`. -/
theorem V1_main_v10_row : (fun q : Fin 64 => (Gen.V1 (F := Ideal) m ρ c main_v10 : S1x64.Idx → EReal) (ix2 (0 : Fin 1) q))
    = fun q => m ((c.tc : Thread nD τ).loc main_arg4) (ix1 q) := by
  funext q
  rw [V1_main_v10]
  exact shapeCast_a_1a_apply _ _ 0 q

/-- No operation of the first stretch writes the first weight matrix. -/
theorem V1_main_arg3 : (Gen.V1 (F := Ideal) m ρ c main_arg3 : S64x64.Idx → EReal) = m ((c.tc : Thread nD τ).loc main_arg3) :=
  calc (Gen.V1 (F := Ideal) m ρ c main_arg3 : S64x64.Idx → EReal)
    _ = Gen.W0 m ρ c (Proc.devRef .tc main_arg3) := StableHlo.after_of_forall_not_mem _ _ (List.forall_iff_forall_mem.mp (by
        simp only [Gen.hostOps0, List.flatten_cons, List.flatten_nil, List.append_nil, List.cons_append,
          List.nil_append, List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c.tc : Thread nD τ).loc main_arg3) := rfl

/-! ## The first region's exit -/

/-- The first region leaves, in its output array, the dense layer with the hyperbolic tangent of the neighbour sum
    of the launched features, at the first weight matrix and the first bias. -/
theorem W2_main_v11 : (Gen.W2 (F := Ideal) m ρ c (Proc.devRef .tc main_v11) : S50000x64.Idx → EReal)
    = denseTanh (aggregate (m ((c.tc : Thread nD τ).loc main_arg0)) (m ((c.tc : Thread nD τ).loc main_arg1)) (m ((c.tc : Thread nD τ).loc main_arg2)))
        (m ((c.tc : Thread nD τ).loc main_arg3)) (fun q => m ((c.tc : Thread nD τ).loc main_arg4) (ix1 q)) := by
  have h : (Gen.W2 (F := Ideal) m ρ c (Proc.devRef .tc main_v11) : S50000x64.Idx → EReal)
      = denseTanh (Gen.V1 m ρ c main_v9) (Gen.V1 m ρ c main_arg3) (fun q => Gen.V1 m ρ c main_v10 (ix2 (0 : Fin 1) q)) :=
    (Gen.W2_arr m ρ c 3).trans (region0_array (Gen.V1 m ρ) c)
  rw [h, V1_main_v9, V1_main_arg3, V1_main_v10_row]

/-- `main_arg1` is written by no host operation of the first stretch and is no array of the first region: at the
    first region's exit it is as launched. -/
theorem W2_main_arg1 : Gen.W2 (F := Ideal) m ρ c (Proc.devRef .tc main_arg1) = m ((c.tc : Thread nD τ).loc main_arg1) :=
  calc Gen.W2 (F := Ideal) m ρ c (Proc.devRef .tc main_arg1)
    _ = Gen.W1 m ρ c (Proc.devRef .tc main_arg1) := Gen.W2_of_ne m ρ c main_arg1 (by decide)
    _ = Gen.W0 m ρ c (Proc.devRef .tc main_arg1) := StableHlo.after_of_forall_not_mem _ _ (List.forall_iff_forall_mem.mp (by
        simp only [Gen.hostOps0, List.flatten_cons, List.flatten_nil, List.append_nil, List.cons_append,
          List.nil_append, List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c.tc : Thread nD τ).loc main_arg1) := rfl

/-- `main_arg2` is written by no host operation of the first stretch and is no array of the first region: at the
    first region's exit it is as launched. -/
theorem W2_main_arg2 : Gen.W2 (F := Ideal) m ρ c (Proc.devRef .tc main_arg2) = m ((c.tc : Thread nD τ).loc main_arg2) :=
  calc Gen.W2 (F := Ideal) m ρ c (Proc.devRef .tc main_arg2)
    _ = Gen.W1 m ρ c (Proc.devRef .tc main_arg2) := Gen.W2_of_ne m ρ c main_arg2 (by decide)
    _ = Gen.W0 m ρ c (Proc.devRef .tc main_arg2) := StableHlo.after_of_forall_not_mem _ _ (List.forall_iff_forall_mem.mp (by
        simp only [Gen.hostOps0, List.flatten_cons, List.flatten_nil, List.append_nil, List.cons_append,
          List.nil_append, List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c.tc : Thread nD τ).loc main_arg2) := rfl

/-- `main_arg5` is written by no host operation of the first stretch and is no array of the first region: at the
    first region's exit it is as launched. -/
theorem W2_main_arg5 : Gen.W2 (F := Ideal) m ρ c (Proc.devRef .tc main_arg5) = m ((c.tc : Thread nD τ).loc main_arg5) :=
  calc Gen.W2 (F := Ideal) m ρ c (Proc.devRef .tc main_arg5)
    _ = Gen.W1 m ρ c (Proc.devRef .tc main_arg5) := Gen.W2_of_ne m ρ c main_arg5 (by decide)
    _ = Gen.W0 m ρ c (Proc.devRef .tc main_arg5) := StableHlo.after_of_forall_not_mem _ _ (List.forall_iff_forall_mem.mp (by
        simp only [Gen.hostOps0, List.flatten_cons, List.flatten_nil, List.append_nil, List.cons_append,
          List.nil_append, List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c.tc : Thread nD τ).loc main_arg5) := rfl

/-- `main_arg6` is written by no host operation of the first stretch and is no array of the first region: at the
    first region's exit it is as launched. -/
theorem W2_main_arg6 : Gen.W2 (F := Ideal) m ρ c (Proc.devRef .tc main_arg6) = m ((c.tc : Thread nD τ).loc main_arg6) :=
  calc Gen.W2 (F := Ideal) m ρ c (Proc.devRef .tc main_arg6)
    _ = Gen.W1 m ρ c (Proc.devRef .tc main_arg6) := Gen.W2_of_ne m ρ c main_arg6 (by decide)
    _ = Gen.W0 m ρ c (Proc.devRef .tc main_arg6) := StableHlo.after_of_forall_not_mem _ _ (List.forall_iff_forall_mem.mp (by
        simp only [Gen.hostOps0, List.flatten_cons, List.flatten_nil, List.append_nil, List.cons_append,
          List.nil_append, List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c.tc : Thread nD τ).loc main_arg6) := rfl

/-! ## The second stretch of host operations, from the first region's exit -/

/-- The second stretch leaves the neighbour sum of the first region's output in the second region's feature array. -/
theorem V3_main_v21 : (Gen.V3 (F := Ideal) m ρ c main_v21 : S50000x64.Idx → EReal)
    = aggregate (Gen.W2 m ρ c (Proc.devRef .tc main_v11)) (Gen.W2 m ρ c (Proc.devRef .tc main_arg1)) (Gen.W2 m ρ c (Proc.devRef .tc main_arg2)) := by
  dsimp only [Gen.V3, Gen.W3, Gen.hostOps1]
  after_results
  rfl

/-- The second stretch leaves the second bias, reshaped to one row, in the second region's bias array. -/
theorem V3_main_v22 : (Gen.V3 (F := Ideal) m ρ c main_v22 : S1x64.Idx → EReal)
    = shapeCast S1x64 (Gen.W2 m ρ c (Proc.devRef .tc main_arg6)) Facts₀.shapeCasts_S64_S1x64 := by
  dsimp only [Gen.V3, Gen.W3, Gen.hostOps1]
  after_results
  rfl

/-- The second bias row read at its entry `q`. -/
theorem V3_main_v22_row : (fun q : Fin 64 => (Gen.V3 (F := Ideal) m ρ c main_v22 : S1x64.Idx → EReal) (ix2 (0 : Fin 1) q))
    = fun q => m ((c.tc : Thread nD τ).loc main_arg6) (ix1 q) := by
  funext q
  rw [V3_main_v22, shapeCast_a_1a_apply _ _ 0 q, W2_main_arg6]

/-- No operation of the second stretch writes the second weight matrix. -/
theorem V3_main_arg5 : (Gen.V3 (F := Ideal) m ρ c main_arg5 : S64x64.Idx → EReal) = m ((c.tc : Thread nD τ).loc main_arg5) :=
  calc (Gen.V3 (F := Ideal) m ρ c main_arg5 : S64x64.Idx → EReal)
    _ = Gen.W2 m ρ c (Proc.devRef .tc main_arg5) := StableHlo.after_of_forall_not_mem _ _ (List.forall_iff_forall_mem.mp (by
        simp only [Gen.hostOps1, List.flatten_cons, List.flatten_nil, List.append_nil, List.cons_append,
          List.nil_append, List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c.tc : Thread nD τ).loc main_arg5) := W2_main_arg5 m ρ c

/-! ## The result -/

/-- The result buffer at the end of the run: two rounds of "neighbour sum, then dense layer" on the launched
    features, the first round followed by the hyperbolic tangent. -/
theorem kernel_value :
    Gen.W4 (F := Ideal) m ρ c (Proc.devRef .tc main_v23)
      = dense (aggregate (denseTanh (aggregate (m ((c.tc : Thread nD τ).loc main_arg0)) (m ((c.tc : Thread nD τ).loc main_arg1)) (m ((c.tc : Thread nD τ).loc main_arg2)))
            (m ((c.tc : Thread nD τ).loc main_arg3)) (fun q => m ((c.tc : Thread nD τ).loc main_arg4) (ix1 q)))
          (m ((c.tc : Thread nD τ).loc main_arg1)) (m ((c.tc : Thread nD τ).loc main_arg2)))
        (m ((c.tc : Thread nD τ).loc main_arg5)) (fun q => m ((c.tc : Thread nD τ).loc main_arg6) (ix1 q)) := by
  have h : (Gen.W4 (F := Ideal) m ρ c (Proc.devRef .tc main_v23) : S50000x64.Idx → EReal)
      = dense (Gen.V3 m ρ c main_v21) (Gen.V3 m ρ c main_arg5) (fun q => Gen.V3 m ρ c main_v22 (ix2 (0 : Fin 1) q)) :=
    (Gen.W4_arr m ρ c 3).trans (region1_array (Gen.V3 m ρ) c)
  rw [h, V3_main_v21, V3_main_arg5, V3_main_v22_row, W2_main_v11, W2_main_arg1, W2_main_arg2]

/-- info: 'Cert.MessagePassing.kernel_value' depends on axioms: [propext, Classical.choice, Quot.sound] -/
#guard_msgs in #print axioms kernel_value

end Cert.MessagePassing

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.Reference.lean ====
/-
  The reference program's result in closed form.

  The reference runs two rounds of message passing on the node features. A round first aggregates: every edge
  carries the feature row of its source node to its destination node and a node sums the rows that arrive. It
  then applies a dense layer: the aggregate times the TRANSPOSE of a weight matrix, plus a bias broadcast down the
  rows; the first round is followed by the hyperbolic tangent of every entry. Read entry by entry, the product
  with the transposed weights is the inner product of a row of the aggregate with a ROW of the weights, which is
  the dense layer of the companion file; the aggregation is the same composite of host operations as the named
  aggregate, whose value is never needed. So the reference's result is
  dense (aggregate (denseTanh (aggregate x0) W1 b1)) W2 b2.
-/
import proofs.«159912_j16707422781832_1_alg».proof.Proof.Gen.ReferenceIdeal.Read
import proofs.«159912_j16707422781832_1_alg».proof.Proof.Dense
import proofs.«159912_j16707422781832_1_alg».proof.Proof.Aggregate
import proofs.«159912_j16707422781832_1_alg».proof.Proof.LibHostRead
import proofs.«159912_j16707422781832_1_alg».proof.Proof.LibMatmulRead

noncomputable section

open scoped BigOperators

namespace Cert.MessagePassing

open Idealize.ShloMosaic Idealize.ShloMosaic.ValueIdx Cert.ReferenceIdeal Cert.ReferenceIdeal.Gen Cert.ReferenceIdeal.Read

/-- The reference's host product with the transposed weights plus the bias broadcast down the rows is the dense
    layer: at entry (p, q) the product contracts row p of the features with column q of the transpose, that is
    with row q of the weights, and the broadcast bias reads its entry q. -/
theorem host_dense_eq (X : FVec Ideal Nodes .f32) (W : FVec Ideal Weights .f32)
    (b : (⟨Cert.ReferenceIdeal.S64, .f32⟩ : BufTy).Contents (Elt Ideal)) :
    addf (Host.dotGeneral Cert.ReferenceIdeal.dot_S50000x64_S64x64_S50000x64_1_0_0_1_n_n none X
        (transpose Cert.ReferenceIdeal.S64x64 [1, 0] W Cert.ReferenceIdeal.Gen.transposes_S64x64_S64x64_1_0))
      (broadcastInDim Cert.ReferenceIdeal.S50000x64 ![0, 1] Cert.ReferenceIdeal.Gen.bcast_S1x64_S50000x64_0_1
        (broadcastInDim Cert.ReferenceIdeal.S1x64 ![1] Cert.ReferenceIdeal.Gen.bcast_S64_S1x64_1 b))
      = dense X W (fun q => b (ix1 q)) := by
  funext i
  obtain ⟨p, q, rfl⟩ : ∃ (p : Fin 50000) (q : Fin 64), i = ix2 p q := ⟨i 0, i 1, eq_ix2 i⟩
  refine (addf_apply _ _ _).trans ?_
  refine (congrArg₂ (· + ·) ?_ ?_).trans (dense_apply X W _ p q).symm
  · refine (Cert.HostRead.dotGeneral_ix2_apply _ rfl rfl rfl rfl rfl rfl none X _ p q).trans ?_
    exact Finset.sum_congr rfl fun d _ => congrArg (X (ix2 p d) * ·) (transpose_ab_ba_apply W _ d q)
  · exact Cert.HostRead.bias_rows_apply _ _ b p q

/-- The reference's first aggregation is the named aggregate: the same host operations on the same operands. -/
theorem ref_aggregate_eq (x : (⟨Cert.ReferenceIdeal.S50000x64, .f32⟩ : BufTy).Contents (Elt Ideal))
    (x1 x2 : (⟨Cert.ReferenceIdeal.S1600000, .i32⟩ : BufTy).Contents (Elt Ideal)) :
    val_main_v9 (F := Ideal) x x1 x2 = aggregate x x1 x2 := rfl

/-- The first round of the reference: the aggregate, the dense layer and the hyperbolic tangent. -/
theorem ref_round1 (x0 : (⟨Cert.ReferenceIdeal.S50000x64, .f32⟩ : BufTy).Contents (Elt Ideal))
    (x1 x2 : (⟨Cert.ReferenceIdeal.S1600000, .i32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal)) :
    val_main_v15 (F := Ideal) x0 x1 x2 x3 x4 = denseTanh (aggregate x0 x1 x2) x3 (fun q => x4 (ix1 q)) := by
  funext i
  refine (val_main_v15_apply x0 x1 x2 x3 x4 i).trans ?_
  refine (Ideal.hostUnary_tanh_def _).trans ?_
  exact congrArg Ideal.tanh (congrFun (host_dense_eq (aggregate x0 x1 x2) x3 x4) i)

/-- The reference's second aggregation is the named aggregate of the first round's result. -/
theorem ref_aggregate2_eq (x0 : (⟨Cert.ReferenceIdeal.S50000x64, .f32⟩ : BufTy).Contents (Elt Ideal))
    (x1 x2 : (⟨Cert.ReferenceIdeal.S1600000, .i32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal)) :
    val_main_v25 (F := Ideal) x0 x1 x2 x3 x4 = aggregate (val_main_v15 (F := Ideal) x0 x1 x2 x3 x4) x1 x2 := rfl

/-- The reference's result: two rounds, the second without the hyperbolic tangent. -/
theorem reference_result (x0 : (⟨Cert.ReferenceIdeal.S50000x64, .f32⟩ : BufTy).Contents (Elt Ideal))
    (x1 x2 : (⟨Cert.ReferenceIdeal.S1600000, .i32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal)) :
    Cert.ReferenceIdeal.Read.val_main_v30 (F := Ideal) x0 x1 x2 x3 x4 x5 x6
      = dense (aggregate (denseTanh (aggregate x0 x1 x2) x3 (fun q => x4 (ix1 q))) x1 x2) x5 (fun q => x6 (ix1 q)) := by
  refine (host_dense_eq (val_main_v25 (F := Ideal) x0 x1 x2 x3 x4) x5 x6).trans ?_
  rw [ref_aggregate2_eq, ref_round1]

end Cert.MessagePassing

end
-- ==== Proof.lean ====
/-
  Two rounds of message passing on a graph: the tiled kernel program against the plain reference.

  A round aggregates — every edge carries the feature row of its source node to its destination node, and a node sums
  the rows that arrive — and then applies a dense layer `x · wᵀ + β`; the first round is followed by the hyperbolic
  tangent. Both programs aggregate by the same host operations. The kernel program computes each dense layer in a
  region that walks ten blocks of 5000 rows, rounding its operands to a narrower format on the way into the matrix
  unit; the reference computes it by one host product against the transposed weights and a broadcast bias. Over the
  extended reals a change of format is the identity and both products are the sum over the 64 input features, so
  both programs end with
      dense (aggregate (denseTanh (aggregate feat) W1 b1)) W2 b2.
  No algebraic law beyond reading both sides entry by entry is needed, and the finiteness of the inputs is never used.

  The modules: Dense (the dense layer, entry by entry), Aggregate (the aggregation as one named function), Payload
  (what a kernel body stores), KernelBlocks (a region's output array from its ten blocks), KernelRun (the kernel
  program's run with its result named), KernelChain (that result read through the host operations and the two
  regions), Reference (the reference's result), and the claims below. The kernel program is its own idealization
  (nothing was rewritten), so that claim is trivial.
-/
import proofs.«159912_j16707422781832_1_alg».proof.Defs
import proofs.«159912_j16707422781832_1_alg».proof.Proof.Gen.Kernel
import proofs.«159912_j16707422781832_1_alg».proof.Proof.Gen.Kernel.Frame
import proofs.«159912_j16707422781832_1_alg».proof.Proof.Gen.KernelIdeal
import proofs.«159912_j16707422781832_1_alg».proof.Proof.Gen.KernelIdeal.Frame
import proofs.«159912_j16707422781832_1_alg».proof.Proof.Gen.ReferenceIdeal
import proofs.«159912_j16707422781832_1_alg».proof.Proof.Gen.ReferenceIdeal.Run
import proofs.«159912_j16707422781832_1_alg».proof.Proof.Gen.ReferenceIdeal.Read
import proofs.«159912_j16707422781832_1_alg».proof.Proof.Gen.Pre_finite_inputs
import proofs.«159912_j16707422781832_1_alg».proof.Proof.KernelRun
import proofs.«159912_j16707422781832_1_alg».proof.Proof.KernelChain
import proofs.«159912_j16707422781832_1_alg».proof.Proof.Reference
import Idealize.ShloMosaic.Adequacy
import Idealize.ShloMosaic.Init

noncomputable section

namespace Cert.Proof

open Idealize.ShloMosaic Idealize.ShloMosaic.TcCoe Idealize.ShloMosaic.ValueIdx Idealize.SL.Sem Cert.MessagePassing

/-- The kernel program terminates without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel program was rewritten for the extended reals. -/
theorem preserves : Cert.preserves_Kernel_KernelIdeal := trivial

/-- From memories that agree on the arguments both programs end with the same array: two rounds of aggregation and
    dense layer of the arguments. -/
theorem algebraic : Cert.algebraic_KernelIdeal_ReferenceIdeal := by
  intro m ρ m' ρ' _ hagree
  refine ⟨fun c => _, (θ_run Cert.KernelIdeal.defs _ _).mono
    (fun r h c => ⟨(h c).1.trans (kernel_value m ρ c), (h c).2⟩) (kernel_run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v30_eq _ _ _ _ _ _ _).trans (reference_result _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
